-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000x4 : Shape := ⟨2, ![200000, 4]⟩
abbrev S128x640 : Shape := ⟨2, ![128, 640]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x640 : S_.BroadcastsInDim S128x640 (![] : Fin 0 → Fin S128x640.rank)
  reducesTo_S128x640_S_d0_1 : S128x640.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S200000x128 .f32) (main_arg1 : FVec F S200000x128 .f32) (main_arg2 : IVec S200000x4 32) (main_arg3 : FVec F S128x640 .f32) (main_arg4 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x640 .f32 := Host.absf main_arg3
  let main_cst_2 : FVec F S_ .f32 := constant S_ .f32 0x7F800000#32
  let main_v10 : FVec F S128x640 .f32 := broadcastInDim S128x640 ![] bcast_S_S128x640 main_cst_2
  let main_v11 : IVec S128x640 1 := cmpf .olt main_v9 main_v10
  let main_c_3 : IVec S_ 1 := constantI S_ 1 1#1
  let main_v12 : IVec S_ 1 := (fun x v => Host.reduce IntOp.andi x v reducesTo_S128x640_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S200000x128 : Shape := ⟨2, ![200000, 128]⟩
abbrev S200000x4 : Shape := ⟨2, ![200000, 4]⟩
abbrev S128x640 : Shape := ⟨2, ![128, 640]⟩
abbrev S128 : Shape := ⟨1, ![128]⟩
abbrev S_ : Shape := ⟨0, ![]⟩
abbrev S200000x4x1 : Shape := ⟨3, ![200000, 4, 1]⟩
abbrev S200000x4x128 : Shape := ⟨3, ![200000, 4, 128]⟩
abbrev S200000x512 : Shape := ⟨2, ![200000, 512]⟩
abbrev S128x128 : Shape := ⟨2, ![128, 128]⟩
abbrev S128x512 : Shape := ⟨2, ![128, 512]⟩
abbrev S512x128 : Shape := ⟨2, ![512, 128]⟩
abbrev S1x128 : Shape := ⟨2, ![1, 128]⟩
abbrev S10000x128 : Shape := ⟨2, ![10000, 128]⟩
abbrev S10000x512 : Shape := ⟨2, ![10000, 512]⟩

abbrev nBuf : Space → Nat
  | .hbm => 25
  | .vmem => 9
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S200000x4, .i32⟩
  | .hbm, ⟨3, _⟩ => ⟨S128x640, .f32⟩
  | .hbm, ⟨4, _⟩ => ⟨S128, .f32⟩
  | .hbm, ⟨5, _⟩ => ⟨S200000x128, .bf16⟩
  | .hbm, ⟨6, _⟩ => ⟨S_, .i32⟩
  | .hbm, ⟨7, _⟩ => ⟨S200000x4, .i32⟩
  | .hbm, ⟨8, _⟩ => ⟨S200000x4, .i1⟩
  | .hbm, ⟨9, _⟩ => ⟨S_, .i32⟩
  | .hbm, ⟨10, _⟩ => ⟨S200000x4, .i32⟩
  | .hbm, ⟨11, _⟩ => ⟨S200000x4, .i32⟩
  | .hbm, ⟨12, _⟩ => ⟨S200000x4, .i32⟩
  | .hbm, ⟨13, _⟩ => ⟨S200000x4x1, .i32⟩
  | .hbm, ⟨14, _⟩ => ⟨S200000x4x128, .bf16⟩
  | .hbm, ⟨15, _⟩ => ⟨S200000x512, .bf16⟩
  | .hbm, ⟨16, _⟩ => ⟨S200000x128, .bf16⟩
  | .hbm, ⟨17, _⟩ => ⟨S128x128, .f32⟩
  | .hbm, ⟨18, _⟩ => ⟨S128x128, .f32⟩
  | .hbm, ⟨19, _⟩ => ⟨S128x128, .bf16⟩
  | .hbm, ⟨20, _⟩ => ⟨S128x512, .f32⟩
  | .hbm, ⟨21, _⟩ => ⟨S512x128, .f32⟩
  | .hbm, ⟨22, _⟩ => ⟨S512x128, .bf16⟩
  | .hbm, ⟨23, _⟩ => ⟨S1x128, .f32⟩
  | .hbm, ⟨24, _⟩ => ⟨S200000x128, .f32⟩
  | .local _ .vmem, ⟨0, _⟩ => ⟨S10000x128, .bf16⟩
  | .local _ .vmem, ⟨1, _⟩ => ⟨S10000x128, .bf16⟩
  | .local _ .vmem, ⟨2, _⟩ => ⟨S10000x512, .bf16⟩
  | .local _ .vmem, ⟨3, _⟩ => ⟨S10000x512, .bf16⟩
  | .local _ .vmem, ⟨4, _⟩ => ⟨S128x128, .bf16⟩
  | .local _ .vmem, ⟨5, _⟩ => ⟨S512x128, .bf16⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S200000x4 : S_.BroadcastsInDim S200000x4 (![] : Fin 0 → Fin S200000x4.rank)
  bcast_S200000x4_S200000x4x1_0_1 : S200000x4.BroadcastsInDim S200000x4x1 (![0, 1] : Fin 2 → Fin S200000x4x1.rank)
  shapeCasts_S200000x4x128_S200000x512 : S200000x4x128.ShapeCasts S200000x512
  slices_S128x640_S128x128_0_0 : S128x640.Slices ![0, 0] S128x128
  transposes_S128x128_S128x128_1_0 : S128x128.Transposes [1, 0] S128x128
  slices_S128x640_S128x512_0_128 : S128x640.Slices ![0, 128] S128x512
  transposes_S128x512_S512x128_1_0 : S128x512.Transposes [1, 0] S512x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S200000x128_S200000x4x1_S200000x4x128_2_0_n_n_0_2_1128_wf : GatherDims.WF S200000x128 S200000x4x1 S200000x4x128 [2] [0] [] [0] [] 2 ![1, 128]
  dot_S10000x128_S128x128_S10000x128_1_0_0_1_n_n_wf : DotDims.WF S10000x128 S128x128 S10000x128 [1] [0] [0] [1] [] []
  dot_S10000x512_S512x128_S10000x128_1_0_0_1_n_n_wf : DotDims.WF S10000x512 S512x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .bf16 = 32 ∨ (Rect.block (s := S200000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S200000x512.size a
  hwx0_1 : ∀ i : grid0.Coords, EltTy.bits .bf16 = 32 ∨ (Rect.block (s := S200000x512) S10000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S200000x128.size a
  hwx0_5 : ∀ i : grid0.Coords, EltTy.bits .f32 = 32 ∨ (Rect.block (s := S200000x128) S10000x128.size (cc0_transform_5 i) (hinb0_5 i)).WholeWords (EltTy.packing .f32)

variable [Facts₀]

def gather_S200000x128_S200000x4x1_S200000x4x128_2_0_n_n_0_2_1128 : GatherDims S200000x128 S200000x4x1 S200000x4x128 where
  offsetDims := [2]
  collapsedSliceDims := [0]
  operandBatchingDims := []
  startIndicesBatchingDims := []
  startIndexMap := [0]
  indexVectorDim := 2
  sliceSizes := ![1, 128]
  wf := gather_S200000x128_S200000x4x1_S200000x4x128_2_0_n_n_0_2_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x128 : Shape := ⟨2, ![200000, 128]⟩
abbrev S200000x4 : Shape := ⟨2, ![200000, 4]⟩
abbrev S128x640 : Shape := ⟨2, ![128, 640]⟩
abbrev S128 : Shape := ⟨1, ![128]⟩
abbrev S_ : Shape := ⟨0, ![]⟩
abbrev S200000x4x1 : Shape := ⟨3, ![200000, 4, 1]⟩
abbrev S200000x4x128 : Shape := ⟨3, ![200000, 4, 128]⟩
abbrev S200000x512 : Shape := ⟨2, ![200000, 512]⟩
abbrev S200000x640 : Shape := ⟨2, ![200000, 640]⟩
abbrev S1x128 : Shape := ⟨2, ![1, 128]⟩

abbrev nBuf : Space → Nat
  | .hbm => 20
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S200000x4, .i32⟩
  | .hbm, ⟨3, _⟩ => ⟨S128x640, .f32⟩
  | .hbm, ⟨4, _⟩ => ⟨S128, .f32⟩
  | .hbm, ⟨5, _⟩ => ⟨S_, .i32⟩
  | .hbm, ⟨6, _⟩ => ⟨S200000x4, .i32⟩
  | .hbm, ⟨7, _⟩ => ⟨S200000x4, .i1⟩
  | .hbm, ⟨8, _⟩ => ⟨S_, .i32⟩
  | .hbm, ⟨9, _⟩ => ⟨S200000x4, .i32⟩
  | .hbm, ⟨10, _⟩ => ⟨S200000x4, .i32⟩
  | .hbm, ⟨11, _⟩ => ⟨S200000x4, .i32⟩
  | .hbm, ⟨12, _⟩ => ⟨S200000x4x1, .i32⟩
  | .hbm, ⟨13, _⟩ => ⟨S200000x4x128, .f32⟩
  | .hbm, ⟨14, _⟩ => ⟨S200000x512, .f32⟩
  | .hbm, ⟨15, _⟩ => ⟨S200000x640, .f32⟩
  | .hbm, ⟨16, _⟩ => ⟨S200000x128, .f32⟩
  | .hbm, ⟨17, _⟩ => ⟨S1x128, .f32⟩
  | .hbm, ⟨18, _⟩ => ⟨S200000x128, .f32⟩
  | .hbm, ⟨19, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S200000x4 : S_.BroadcastsInDim S200000x4 (![] : Fin 0 → Fin S200000x4.rank)
  bcast_S200000x4_S200000x4x1_0_1 : S200000x4.BroadcastsInDim S200000x4x1 (![0, 1] : Fin 2 → Fin S200000x4x1.rank)
  shapeCasts_S200000x4x128_S200000x512 : S200000x4x128.ShapeCasts S200000x512
  concatenates_S200000x128_S200000x512_S200000x640_d1 : Shape.Concatenates [S200000x128, S200000x512] S200000x640 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x128_S200000x4x1_S200000x4x128_2_0_n_n_0_2_1128_wf : GatherDims.WF S200000x128 S200000x4x1 S200000x4x128 [2] [0] [] [0] [] 2 ![1, 128]
  dot_S200000x640_S128x640_S200000x128_1_1_0_0_n_n_wf : DotDims.WF S200000x640 S128x640 S200000x128 [1] [1] [0] [0] [] []

variable [Facts₀]

def gather_S200000x128_S200000x4x1_S200000x4x128_2_0_n_n_0_2_1128 : GatherDims S200000x128 S200000x4x1 S200000x4x128 where
  offsetDims := [2]
  collapsedSliceDims := [0]
  operandBatchingDims := []
  startIndicesBatchingDims := []
  startIndexMap := [0]
  indexVectorDim := 2
  sliceSizes := ![1, 128]
  wf := gather_S200000x128_S200000x4x1_S200000x4x128_2_0_n_n_0_2_1128_wf
def dot_S200000x640_S128x640_S200000x128_1_1_0_0_n_n : DotDims S200000x640 S128x640 S200000x128 where
  lhsContracting := [1]
  rhsContracting := [1]
  lhsNonContracting := [0]
  rhsNonContracting := [0]
  lhsBatch := []
  rhsBatch := []
  wf := dot_S200000x640_S128x640_S200000x128_1_1_0_0_n_n_wf

class Facts : Prop extends Facts₀ where

variable [Facts]
-- ==== Proof.Spec.lean ====
/-
  The function both programs compute, stated once, with no program in sight.

  Every point `n` of the cloud carries a row of 128 features; its four neighbours' previous rows, laid end to end,
  give 512 more. The layer is linear in the 640 joined columns: output column `o` of point `n` is the inner product
  of the joined row with row `o` of the weight matrix `w` (128 rows of 640 columns), plus the bias `b o`.

  Written with the joined row never formed: the first 128 columns of `w` meet the point's own features, the last
  512 meet the neighbours' rows. That the one sum over 640 columns is these two sums added is `sum_columns`, which holds in
  any commutative monoid under addition: it re-groups a finite sum and distributes nothing, so on the extended reals it
  needs no finiteness of the summands.
-/
import Idealize.ShloMosaic.PureOps.Ideal
import Idealize.ShloMosaic.Lib.ValueIdx

noncomputable section

namespace Cert.NeighbourLinear

open Idealize.ShloMosaic Idealize.ShloMosaic.ValueIdx

/-- Column `k` of a point's own features, as a column of the joined row of 640. -/
def colSelf (k : Fin 128) : Fin 640 := ⟨k.val, by have := k.isLt; omega⟩

/-- Column `j` of the neighbours' 512 gathered columns, as a column of the joined row: the 128 own columns come first. -/
def colNbr (j : Fin 512) : Fin 640 := ⟨128 + j.val, by have := j.isLt; omega⟩

theorem colSelf_val (k : Fin 128) : (colSelf k).val = k.val := rfl
theorem colNbr_val (j : Fin 512) : (colNbr j).val = 128 + j.val := rfl

/-- A sum over the 640 joined columns is the sum over the 128 own columns plus the sum over the 512 neighbour
    columns: the columns are split at 128 and nothing else is done. -/
theorem sum_columns {M : Type*} [AddCommMonoid M] (f : Fin 640 → M) :
    ∑ k : Fin 640, f k = ∑ k : Fin 128, f (colSelf k) + ∑ j : Fin 512, f (colNbr j) :=
  Fin.sum_univ_add (a := 128) (b := 512) f

/-- The layer: `x` the points' features, `nb` the neighbours' gathered rows (four rows of 128 end to end), `w` the
    weights, `b` the bias. Entry `(n, o)` is `∑ₖ x n k · w o k + ∑ⱼ nb n j · w o (128 + j) + b o`. -/
def layer (x : (⟨2, ![200000, 128]⟩ : Shape).Idx → EReal) (nb : (⟨2, ![200000, 512]⟩ : Shape).Idx → EReal)
    (w : (⟨2, ![128, 640]⟩ : Shape).Idx → EReal) (b : (⟨1, ![128]⟩ : Shape).Idx → EReal) :
    (⟨2, ![200000, 128]⟩ : Shape).Idx → EReal :=
  fun i => (∑ k : Fin 128, x (ix2 (i 0) k) * w (ix2 (i 1) (colSelf k)))
    + (∑ j : Fin 512, nb (ix2 (i 0) j) * w (ix2 (i 1) (colNbr j))) + b (ix1 (i 1))

theorem layer_apply (x : (⟨2, ![200000, 128]⟩ : Shape).Idx → EReal) (nb : (⟨2, ![200000, 512]⟩ : Shape).Idx → EReal)
    (w : (⟨2, ![128, 640]⟩ : Shape).Idx → EReal) (b : (⟨1, ![128]⟩ : Shape).Idx → EReal)
    (n : Fin 200000) (o : Fin 128) :
    layer x nb w b (ix2 n o) = (∑ k : Fin 128, x (ix2 n k) * w (ix2 o (colSelf k)))
      + (∑ j : Fin 512, nb (ix2 n j) * w (ix2 o (colNbr j))) + b (ix1 o) := rfl

end Cert.NeighbourLinear

end
-- ==== Proof.RefLayer.lean ====
/-
  The reference's result is the layer.

  The reference joins each point's own 128 features with its neighbours' 512 gathered columns into one row of 640,
  contracts the joined row with each of the 128 weight rows, and adds the bias. Read at entry `(n, o)` that is one sum over
  the 640 joined columns; a joined column below 128 is one of the point's own features, a column from 128 on is a
  gathered neighbour column, so splitting the sum at 128 (`sum_columns`) gives the layer's two sums. The neighbours'
  rows stay as the reference gathers them: which rows the index array selects is never opened.
-/
import proofs.«150448_j47648367182715_2_alg».proof.Proof.Gen.ReferenceIdeal.Read
import proofs.«150448_j47648367182715_2_alg».proof.Proof.Spec

noncomputable section

namespace Cert.NeighbourLinear

open Cert.ReferenceIdeal Cert.ReferenceIdeal.Gen Cert.ReferenceIdeal.Read Idealize.ShloMosaic Idealize.ShloMosaic.ValueIdx

/-- The weight entry the contraction meets at joined column `cc` of output column `i 1`. -/
theorem weight_index (i : S200000x128.Idx) (cc : Fin 640) : ridx_main_v9 i cc = ix2 (i 1) cc :=
  funext fun a => Fin.ext (by match a with | ⟨0, _⟩ => rfl | ⟨1, _⟩ => rfl)

/-- The bias entry added at output column `i 1`: the bias vector is laid as one row and repeated down the points. -/
theorem bias_index (i : S200000x128.Idx) : idx_main_v10 (idx_main_v11 i) = ix1 (i 1) :=
  funext fun a => Fin.ext (by match a with | ⟨0, _⟩ => rfl)

/-- A joined column below 128 is the point's own feature in that column. -/
theorem joined_own (x0 x1 : (⟨S200000x128, .f32⟩ : BufTy).Contents (Elt Ideal)) (x2 : (⟨S200000x4, .i32⟩ : BufTy).Contents (Elt Ideal))
    (i : S200000x128.Idx) (k : Fin 128) :
    val_main_v8 (F := Ideal) x0 x1 x2 (lidx_main_v9 i (colSelf k)) = x0 (ix2 (i 0) k) := by
  unfold val_main_v8
  exact concatenate_pair_apply_left (1 : Fin S200000x640.rank) x0 _ concatenates_S200000x128_S200000x512_S200000x640_d1 _ rfl
    (ix2 (i 0) k) (fun b => match b with | ⟨0, _⟩ => rfl | ⟨1, _⟩ => rfl)

/-- A joined column from 128 on is the gathered neighbour column 128 to the left. -/
theorem joined_nbr (x0 x1 : (⟨S200000x128, .f32⟩ : BufTy).Contents (Elt Ideal)) (x2 : (⟨S200000x4, .i32⟩ : BufTy).Contents (Elt Ideal))
    (i : S200000x128.Idx) (j : Fin 512) :
    val_main_v8 (F := Ideal) x0 x1 x2 (lidx_main_v9 i (colNbr j)) = val_main_v7 (F := Ideal) x1 x2 (ix2 (i 0) j) := by
  unfold val_main_v8
  refine concatenate_pair_apply_right (1 : Fin S200000x640.rank) x0 _ concatenates_S200000x128_S200000x512_S200000x640_d1 _ rfl rfl
    (ix2 (i 0) j) (fun b hb => ?_) ?_
  · match b, hb with
    | ⟨0, _⟩, _ => rfl
    | ⟨1, _⟩, hb => exact absurd rfl hb
  · show j.val + 128 = 128 + j.val
    omega

/-- The reference's last stage, as one function of the argument arrays, is the layer over the rows it gathers. -/
theorem reference_eq_layer (x0 x1 : (⟨S200000x128, .f32⟩ : BufTy).Contents (Elt Ideal)) (x2 : (⟨S200000x4, .i32⟩ : BufTy).Contents (Elt Ideal))
    (x3 : (⟨S128x640, .f32⟩ : BufTy).Contents (Elt Ideal)) (x4 : (⟨S128, .f32⟩ : BufTy).Contents (Elt Ideal)) :
    val_main_v12 (F := Ideal) x0 x1 x2 x3 x4 = layer x0 (val_main_v7 (F := Ideal) x1 x2) x3 x4 := by
  funext i
  rw [val_main_v12_apply, val_main_v9_apply, val_main_v11_apply, val_main_v10_apply, sum_columns, bias_index]
  simp only [joined_own, joined_nbr, weight_index]
  rfl

end Cert.NeighbourLinear

end
-- ==== Proof.Payload.lean ====
/-
  The kernel body's arithmetic on one block of 10000 points, read at one entry.

  The body multiplies the block's own features (10000 rows of 128) into the own-weights block (128 by 128), the block's
  gathered neighbour rows (10000 by 512) into the neighbour-weights block (512 by 128), each product accumulated from
  zero, adds the two products, and adds the bias row to every row. A product accumulated from zero is, on the
  extended reals, the plain sum over the one contracted coordinate; so entry `(p, q)` of the body's result is
  `∑ₖ a p k · u k q + ∑ⱼ g p j · v j q + β 0 q`.
-/
import proofs.«150448_j47648367182715_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.NeighbourLinear

open Cert.KernelIdeal Cert.KernelIdeal.Gen Idealize.ShloMosaic Idealize.ShloMosaic.ValueIdx

/-! ## The own-features product: which operand entries meet at output entry `i`, contracted coordinate `q` -/

theorem own_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem own_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem own_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem own_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The own-features product from zero, at entry `(p, q)`: row `p` of the features against column `q` of the weights. -/
theorem own_product_apply (a : FVec Ideal S10000x128 .bf16) (u : FVec Ideal S128x128 .bf16) (p : Fin 10000) (q : Fin 128) :
    matmul dot_S10000x128_S128x128_S10000x128_1_0_0_1_n_n none a u (constant (F := Ideal) S10000x128 .f32 0x00000000#32) (ix2 p q)
      = ∑ k : Fin 128, a (ix2 p k) * u (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun ax => Fin.ext (by
    match ax with
    | ⟨0, _⟩ => exact own_lhs_row _ _
    | ⟨1, _⟩ => exact (own_lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun ax => Fin.ext (by
    match ax with
    | ⟨0, _⟩ => exact (own_rhs_row _ _).trans hk
    | ⟨1, _⟩ => exact own_rhs_col _ _)
  rw [el, er]

/-! ## The neighbour-rows product, the same over 512 contracted columns -/

theorem nbr_lhs_row (i : S10000x128.Idx) (q : dot_S10000x512_S512x128_S10000x128_1_0_0_1_n_n.contr.Idx) :
    (dot_S10000x512_S512x128_S10000x128_1_0_0_1_n_n.lhsIdx i q 0).val = (i 0).val := by
  unfold DotDims.lhsIdx
  rw [dif_neg (show ¬(0 : Fin S10000x512.rank) ∈ dot_S10000x512_S512x128_S10000x128_1_0_0_1_n_n.lhsBatch by decide), dif_pos (show (0 : Fin S10000x512.rank) ∈ dot_S10000x512_S512x128_S10000x128_1_0_0_1_n_n.lhsNonContracting by decide)]
  rfl
theorem nbr_lhs_col (i : S10000x128.Idx) (q : dot_S10000x512_S512x128_S10000x128_1_0_0_1_n_n.contr.Idx) :
    (dot_S10000x512_S512x128_S10000x128_1_0_0_1_n_n.lhsIdx i q 1).val = (q ⟨0, by decide⟩).val :=
  dot_S10000x512_S512x128_S10000x128_1_0_0_1_n_n.lhsIdx_val_of_single rfl i q
theorem nbr_rhs_row (i : S10000x128.Idx) (q : dot_S10000x512_S512x128_S10000x128_1_0_0_1_n_n.contr.Idx) :
    (dot_S10000x512_S512x128_S10000x128_1_0_0_1_n_n.rhsIdx i q 0).val = (q ⟨0, by decide⟩).val :=
  dot_S10000x512_S512x128_S10000x128_1_0_0_1_n_n.rhsIdx_val_of_single rfl i q
theorem nbr_rhs_col (i : S10000x128.Idx) (q : dot_S10000x512_S512x128_S10000x128_1_0_0_1_n_n.contr.Idx) :
    (dot_S10000x512_S512x128_S10000x128_1_0_0_1_n_n.rhsIdx i q 1).val = (i 1).val := by
  unfold DotDims.rhsIdx
  rw [dif_neg (show ¬(1 : Fin S512x128.rank) ∈ dot_S10000x512_S512x128_S10000x128_1_0_0_1_n_n.rhsBatch by decide), dif_pos (show (1 : Fin S512x128.rank) ∈ dot_S10000x512_S512x128_S10000x128_1_0_0_1_n_n.rhsNonContracting by decide)]
  rfl

/-- The neighbour-rows product from zero, at entry `(p, q)`. -/
theorem nbr_product_apply (g : FVec Ideal S10000x512 .bf16) (v : FVec Ideal S512x128 .bf16) (p : Fin 10000) (q : Fin 128) :
    matmul dot_S10000x512_S512x128_S10000x128_1_0_0_1_n_n none g v (constant (F := Ideal) S10000x128 .f32 0x00000000#32) (ix2 p q)
      = ∑ j : Fin 512, g (ix2 p j) * v (ix2 j q) := by
  simp only [matmul]
  rw [Ideal.matmul_constant_zero_apply, ← Equiv.sum_comp (contrEquiv1 dot_S10000x512_S512x128_S10000x128_1_0_0_1_n_n 512 rfl rfl).symm]
  refine Finset.sum_congr rfl fun k _ => ?_
  have hk := contrEquiv1_symm_val dot_S10000x512_S512x128_S10000x128_1_0_0_1_n_n 512 rfl rfl k
  have el : dot_S10000x512_S512x128_S10000x128_1_0_0_1_n_n.lhsIdx (ix2 p q) ((contrEquiv1 dot_S10000x512_S512x128_S10000x128_1_0_0_1_n_n 512 rfl rfl).symm k) = ix2 p k := funext fun ax => Fin.ext (by
    match ax with
    | ⟨0, _⟩ => exact nbr_lhs_row _ _
    | ⟨1, _⟩ => exact (nbr_lhs_col _ _).trans hk)
  have er : dot_S10000x512_S512x128_S10000x128_1_0_0_1_n_n.rhsIdx (ix2 p q) ((contrEquiv1 dot_S10000x512_S512x128_S10000x128_1_0_0_1_n_n 512 rfl rfl).symm k) = ix2 k q := funext fun ax => Fin.ext (by
    match ax with
    | ⟨0, _⟩ => exact (nbr_rhs_row _ _).trans hk
    | ⟨1, _⟩ => exact nbr_rhs_col _ _)
  rw [el, er]

/-! ## The body's result at an entry -/

/-- Entry `(p, q)` of what the body stores, from the five blocks it loads: own features `a`, own weights `u`,
    gathered neighbour rows `g`, neighbour weights `v`, bias row `β`. -/
theorem payload_apply (a : Vec Ideal S10000x128 .bf16) (u : Vec Ideal S128x128 .bf16) (g : Vec Ideal S10000x512 .bf16)
    (v : Vec Ideal S512x128 .bf16) (β : Vec Ideal S1x128 .f32) (p : Fin 10000) (q : Fin 128) :
    k0_pay1 (F := Ideal) a u g v β (ix2 p q)
      = (∑ k : Fin 128, a (ix2 p k) * u (ix2 k q)) + (∑ j : Fin 512, g (ix2 p j) * v (ix2 j q)) + β (ix2 (0 : Fin 1) q) := by
  unfold k0_pay1
  rw [addf_apply, addf_apply, broadcastTo_1b_ab_apply]
  simp only [shapeCast_self]
  rw [own_product_apply, nbr_product_apply]

end Cert.NeighbourLinear

end
-- ==== Proof.Staged.lean ====
/-
  What the kernel's region finds in the five arrays it reads, in terms of the arguments.

  Before the region the program prepares its operands on the host: the points' own features and the previous
  features change float format only (the identity on the extended reals); the neighbours' rows are gathered from the
  previous features by the index array (negative indices wrapped by the row count first) and the four rows of each
  point laid end to end; the weight matrix is cut into its first 128 columns and its last 512, each cut transposed,
  so that entry `(k, q)` of a cut is the weight of output column `q` at that joined column; the bias becomes one row.
-/
import proofs.«150448_j47648367182715_2_alg».proof.Proof.Gen.KernelIdeal.Frame
import proofs.«150448_j47648367182715_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.NeighbourLinear

open Cert.KernelIdeal Cert.KernelIdeal.Gen Idealize.ShloMosaic Idealize.ShloMosaic.TcCoe Idealize.SL.Sem
open Idealize.ShloMosaic.StableHlo Idealize.ShloMosaic.ValueIdx

/-- The neighbours' rows as the kernel's host operations gather them: row `idx n a` of the previous features (an index
    below zero taken from the end), for the four neighbours `a` of each point `n`, end to end in one row of 512. -/
def gatheredRows (x1 : (⟨S200000x128, .f32⟩ : BufTy).Contents (Elt Ideal)) (x2 : (⟨S200000x4, .i32⟩ : BufTy).Contents (Elt Ideal)) :
    S200000x512.Idx → EReal :=
  shapeCast S200000x512 (Host.gather gather_S200000x128_S200000x4x1_S200000x4x128_2_0_n_n_0_2_1128
    ((truncf (F := Ideal) .bf16 x1 bitsLt_bf16_f32 : (⟨S200000x128, .bf16⟩ : BufTy).Contents (Elt Ideal)))
    (broadcastInDim S200000x4x1 ![0, 1] bcast_S200000x4_S200000x4x1_0_1
      (select (cmpi .slt x2 (broadcastInDim S200000x4 ![] bcast_S_S200000x4 (constantI S_ 32 0#32)))
        (addi x2 (broadcastInDim S200000x4 ![] bcast_S_S200000x4 (constantI S_ 32 200000#32))) x2)))
    shapeCasts_S200000x4x128_S200000x512

variable (m : (ℓ : Loc nD τ sig) → Buf (Elt Ideal) ℓ) (c : Dev nD)

/-- The own-features array is the features argument. -/
theorem own_features_found :
    (V m c main_v9 : S200000x128.Idx → EReal) = m ((c : Thread nD τ).loc main_arg0) := by
  dsimp only [Gen.V, Gen.hostOps0]; after_results <;> rfl

/-- The neighbours array is the rows gathered from the previous features by the index array. -/
theorem gathered_found :
    (V m c main_v8 : S200000x512.Idx → EReal)
      = gatheredRows (m ((c : Thread nD τ).loc main_arg1)) (m ((c : Thread nD τ).loc main_arg2)) := by
  dsimp only [Gen.V, Gen.hostOps0]; after_results <;> rfl

/-- Entry `(k, q)` of the own-weights array is the weight of output column `q` at joined column `k`. -/
theorem own_weights_found (k q : Fin 128) :
    (V m c main_v12 : S128x128.Idx → EReal) (ix2 k q)
      = (m ((c : Thread nD τ).loc main_arg3) : S128x640.Idx → EReal) (ix2 q (colSelf k)) := by
  have e : (V m c main_v12 : S128x128.Idx → EReal)
      = truncf (F := Ideal) .bf16 (transpose S128x128 [1, 0] (extractStridedSlice S128x128 ![0, 0]
          (m ((c : Thread nD τ).loc main_arg3) : S128x640.Idx → EReal) slices_S128x640_S128x128_0_0)
          transposes_S128x128_S128x128_1_0) bitsLt_bf16_f32 := by
    dsimp only [Gen.V, Gen.hostOps0]; after_results <;> rfl
  rw [e, truncf_apply, transpose_ix2_apply,
    slice2_axis1_apply 0 _ slices_S128x640_S128x128_0_0 q k (colSelf k) (by show k.val = 0 + k.val; omega)]

/-- Entry `(j, q)` of the neighbour-weights array is the weight of output column `q` at joined column `128 + j`. -/
theorem nbr_weights_found (j : Fin 512) (q : Fin 128) :
    (V m c main_v15 : S512x128.Idx → EReal) (ix2 j q)
      = (m ((c : Thread nD τ).loc main_arg3) : S128x640.Idx → EReal) (ix2 q (colNbr j)) := by
  have e : (V m c main_v15 : S512x128.Idx → EReal)
      = truncf (F := Ideal) .bf16 (transpose S512x128 [1, 0] (extractStridedSlice S128x512 ![0, 128]
          (m ((c : Thread nD τ).loc main_arg3) : S128x640.Idx → EReal) slices_S128x640_S128x512_0_128)
          transposes_S128x512_S512x128_1_0) bitsLt_bf16_f32 := by
    dsimp only [Gen.V, Gen.hostOps0]; after_results <;> rfl
  rw [e, truncf_apply, transpose_ix2_apply,
    slice2_axis1_apply 128 _ slices_S128x640_S128x512_0_128 q j (colNbr j) rfl]

/-- The one row of the bias array is the bias vector. -/
theorem bias_found (u : Fin 1) (q : Fin 128) :
    (V m c main_v16 : S1x128.Idx → EReal) (ix2 u q) = (m ((c : Thread nD τ).loc main_arg4) : S128.Idx → EReal) (ix1 q) := by
  have e : (V m c main_v16 : S1x128.Idx → EReal)
      = shapeCast S1x128 (m ((c : Thread nD τ).loc main_arg4) : S128.Idx → EReal) shapeCasts_S128_S1x128 := by
    dsimp only [Gen.V, Gen.hostOps0]; after_results <;> rfl
  rw [e, shapeCast_a_1a_apply]

end Cert.NeighbourLinear

end
-- ==== Proof.Blocks.lean ====
/-
  From blocks to the whole array: after the kernel's run its result array is the layer.

  The grid has 20 points; point `t` works on rows `10000 t` to `10000 t + 9999`: it reads that band of the own
  features and of the gathered neighbour rows, the whole of both weight cuts and the bias row, and writes back that
  band of the result. Entry `(p, q)` of what it writes is the body's arithmetic on its blocks (the payload lemma), and
  each block entry is the argument entry the layer names at row `10000 t + p`: so point `t` writes exactly band `t`
  of the layer. Row `r` lies in the band of point `r / 10000`, so the bands cover the array, and the array ends
  holding the layer everywhere.
-/
import proofs.«150448_j47648367182715_2_alg».proof.Proof.Gen.KernelIdeal.Value
import proofs.«150448_j47648367182715_2_alg».proof.Proof.Spec
import proofs.«150448_j47648367182715_2_alg».proof.Proof.Payload
import proofs.«150448_j47648367182715_2_alg».proof.Proof.Staged

set_option maxRecDepth 16384

noncomputable section

namespace Cert.NeighbourLinear

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the arguments as launched on core `c`, over the rows the host operations gather. -/
abbrev kernelLayer (c : Dev nD) : S200000x128.Idx → EReal :=
  layer (m ((c : Thread nD τ).loc main_arg0))
    (gatheredRows (m ((c : Thread nD τ).loc main_arg1)) (m ((c : Thread nD τ).loc main_arg2)))
    (m ((c : Thread nD τ).loc main_arg3)) (m ((c : Thread nD τ).loc main_arg4))

/-- Where each window's block sits at point `t`: the row bands of the own features, the neighbour rows and the
    result move with the point; the weight cuts and the bias row stay. Decided over the 20 points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of one point's work, in coordinates: block entry `(p, q)` against array entry `(n, q)`. If the five
    loaded blocks hold, at the entries the body's sums visit, the argument entries the layer visits, the body's result
    at `(p, q)` is the layer at `(n, q)`. -/
theorem block_entry (a : Vec Ideal S10000x128 .bf16) (u : Vec Ideal S128x128 .bf16) (g : Vec Ideal S10000x512 .bf16)
    (v : Vec Ideal S512x128 .bf16) (β : Vec Ideal S1x128 .f32)
    (x : (⟨2, ![200000, 128]⟩ : Shape).Idx → EReal) (nb : (⟨2, ![200000, 512]⟩ : Shape).Idx → EReal)
    (w : (⟨2, ![128, 640]⟩ : Shape).Idx → EReal) (b : (⟨1, ![128]⟩ : Shape).Idx → EReal)
    (p : Fin 10000) (q : Fin 128) (n : Fin 200000)
    (ha : ∀ k : Fin 128, a (ix2 p k) = x (ix2 n k))
    (hg : ∀ j : Fin 512, g (ix2 p j) = nb (ix2 n j))
    (hu : ∀ k : Fin 128, u (ix2 k q) = w (ix2 q (colSelf k)))
    (hv : ∀ j : Fin 512, v (ix2 j q) = w (ix2 q (colNbr j)))
    (hβ : β (ix2 (0 : Fin 1) q) = b (ix1 q)) :
    k0_pay1 (F := Ideal) a u g v β (ix2 p q) = layer x nb w b (ix2 n q) := by
  rw [payload_apply, layer_apply]
  simp only [ha, hg, hu, hv, hβ]

/-- WHAT POINT `t` WRITES BACK is band `t` of the layer. -/
theorem flushed_eq (c : Dev nD) (t : Fin cfg0.N) :
    (dats m 0 c).flushed 5 t = ((cfg0.win 5).blk t).view.read (Elt Ideal) (kernelLayer m c) := by
  rw [Cert.KernelIdeal.Value.flushed5]
  unfold out0_5
  rw [View.canon_unit_zero zero_offsets]
  simp only [View.ld_unit_zero (S := S10000x128) zero_offsets, View.ld_unit_zero (S := S128x128) zero_offsets,
    View.ld_unit_zero (S := S10000x512) zero_offsets, View.ld_unit_zero (S := S512x128) zero_offsets,
    View.ld_unit_zero (S := S1x128) zero_offsets]
  obtain ⟨e00, e01, e10, e11, e20, e21, e30, e31, e40, e41, e50, e51⟩ := block_indices t
  have ht : t.val < 20 := lt_of_lt_of_eq t.isLt N_0
  funext y
  obtain ⟨p, q, rfl⟩ : ∃ (p : Fin 10000) (q : Fin 128), y = ix2 p q := ⟨y 0, y 1, eq_ix2 y⟩
  have hp : p.val < 10000 := p.isLt
  -- the array row this block row is: the band starts at row 10000 t
  obtain ⟨n, hn⟩ : ∃ n : Fin 200000, n.val = t.val * 10000 + p.val := ⟨⟨t.val * 10000 + p.val, by omega⟩, rfl⟩
  have eo : ((cfg0.win 5).blk t).view.emb (ix2 p q) = (ix2 n q : S200000x128.Idx) := funext fun ax => Fin.ext (by
    match ax with
    | ⟨0, _⟩ => show win0_5.index t (0 : Fin 2) * 10000 + 1 * p.val = n.val; omega
    | ⟨1, _⟩ => show win0_5.index t (1 : Fin 2) * 128 + 1 * q.val = q.val; omega)
  show k0_pay1 (F := Ideal) (iblk m c 0 t) (iblk m c 2 t) (iblk m c 1 t) (iblk m c 3 t) (iblk m c 4 t) (ix2 p q)
    = kernelLayer m c (((cfg0.win 5).blk t).view.emb (ix2 p q))
  rw [eo]
  refine block_entry (iblk m c 0 t) (iblk m c 2 t) (iblk m c 1 t) (iblk m c 3 t) (iblk m c 4 t) _ _ _ _ p q n
    ?_ ?_ ?_ ?_ ?_
  · intro k
    show (V m c main_v9 : S200000x128.Idx → EReal) (((cfg0.win 0).blk t).view.emb (ix2 p k)) = _
    rw [own_features_found]
    refine congrArg _ (funext fun ax => Fin.ext ?_)
    match ax with
    | ⟨0, _⟩ => show win0_0.index t (0 : Fin 2) * 10000 + 1 * p.val = n.val; omega
    | ⟨1, _⟩ => show win0_0.index t (1 : Fin 2) * 128 + 1 * k.val = k.val; omega
  · intro j
    show (V m c main_v8 : S200000x512.Idx → EReal) (((cfg0.win 1).blk t).view.emb (ix2 p j)) = _
    rw [gathered_found]
    refine congrArg _ (funext fun ax => Fin.ext ?_)
    match ax with
    | ⟨0, _⟩ => show win0_1.index t (0 : Fin 2) * 10000 + 1 * p.val = n.val; omega
    | ⟨1, _⟩ => show win0_1.index t (1 : Fin 2) * 512 + 1 * j.val = j.val; omega
  · intro k
    show (V m c main_v12 : S128x128.Idx → EReal) (((cfg0.win 2).blk t).view.emb (ix2 k q)) = _
    have ei : ((cfg0.win 2).blk t).view.emb (ix2 k q) = (ix2 k q : S128x128.Idx) := funext fun ax => Fin.ext (by
      match ax with
      | ⟨0, _⟩ => show win0_2.index t (0 : Fin 2) * 128 + 1 * k.val = k.val; omega
      | ⟨1, _⟩ => show win0_2.index t (1 : Fin 2) * 128 + 1 * q.val = q.val; omega)
    rw [ei]
    exact own_weights_found m c k q
  · intro j
    show (V m c main_v15 : S512x128.Idx → EReal) (((cfg0.win 3).blk t).view.emb (ix2 j q)) = _
    have ei : ((cfg0.win 3).blk t).view.emb (ix2 j q) = (ix2 j q : S512x128.Idx) := funext fun ax => Fin.ext (by
      match ax with
      | ⟨0, _⟩ => show win0_3.index t (0 : Fin 2) * 512 + 1 * j.val = j.val; omega
      | ⟨1, _⟩ => show win0_3.index t (1 : Fin 2) * 128 + 1 * q.val = q.val; omega)
    rw [ei]
    exact nbr_weights_found m c j q
  · show (V m c main_v16 : S1x128.Idx → EReal) (((cfg0.win 4).blk t).view.emb (ix2 (0 : Fin 1) q)) = _
    have ei : ((cfg0.win 4).blk t).view.emb (ix2 (0 : Fin 1) q) = (ix2 (0 : Fin 1) q : S1x128.Idx) := funext fun ax => Fin.ext (by
      match ax with
      | ⟨0, _⟩ => show win0_4.index t (0 : Fin 2) * 1 + 1 * 0 = 0; omega
      | ⟨1, _⟩ => show win0_4.index t (1 : Fin 2) * 128 + 1 * q.val = q.val; omega)
    rw [ei]
    exact bias_found m c 0 q

/-- An index of the result array is in point `t`'s band iff each coordinate is in the band's range on its axis. -/
theorem mem_band (t : Fin cfg0.N) (i : S200000x128.Idx) :
    i ∈ ((cfg0.win 5).blk t).view.set ↔ ∀ a : Fin 2, win0_5.index t a * S10000x128.size a ≤ (i a).val
      ∧ (i a).val < win0_5.index t a * S10000x128.size a + S10000x128.size a := by
  show i ∈ ((View.whole main_v17).slice (win0_5.rect t)).set ↔ _
  rw [View.set_slice_whole, Rect.mem_set_unit]
  exact Iff.rfl

/-- Every index of the result array is in the band of the point its row falls to. -/
theorem bands_cover (i : S200000x128.Idx) :
    ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 20 := N_0
  let t : Fin cfg0.N := ⟨(i 0).val / 10000, by rw [hN]; omega⟩
  have ht : t.val = (i 0).val / 10000 := rfl
  obtain ⟨e00, e01, e10, e11, e20, e21, e30, e31, e40, e41, e50, e51⟩ := block_indices t
  refine ⟨t, flush0_5 t, ?_⟩
  rw [mem_band]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 128 ≤ (i 1).val ∧ (i 1).val < win0_5.index t (1 : Fin 2) * 128 + 128
    omega

/-- THE RESULT ARRAY after the run is the layer. -/
theorem result_eq_layer (c : Dev nD) : (dats m 0 c).arrAt 5 cfg0.N = kernelLayer m c :=
  (dats m 0 c).arrAt_eq_of_cover 5 (kernelLayer m c) (fun t _ => flushed_eq m c t) bands_cover

/-- The kernel's run: every weakly fair execution terminates with the result array at the layer of the arguments as
    launched, and the arguments unchanged. -/
theorem kernel_run : θ_run defs (onTc (τ := τ) (main (F := Ideal))) ⟨m, fun _ => 0, ρ⟩ fun r => ∀ c : Dev nD,
      r.2.mem ((c : Thread nD τ).loc main_v17) = kernelLayer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq_layer m c), (h c).2⟩)
    (Cert.KernelIdeal.Value.run_blocks m ρ)

end Cert.NeighbourLinear

end
-- ==== Proof.SameRows.lean ====
/-
  Both programs gather the same neighbour rows.

  Each wraps a negative index by the row count, then takes, for every point and each of its four neighbours, the whole
  indexed row of the previous features, and lays a point's four rows end to end. The kernel's program does this after
  changing the previous features' float format, the reference before any such change; on the extended reals a change of
  format is the identity, so the two gathered arrays are one function of the previous features and the index array,
  whatever the indices are.
-/
import proofs.«150448_j47648367182715_2_alg».proof.Proof.Gen.ReferenceIdeal.Read
import proofs.«150448_j47648367182715_2_alg».proof.Proof.Staged

noncomputable section

namespace Cert.NeighbourLinear

open Idealize.ShloMosaic

theorem same_rows (x1 : (⟨Cert.KernelIdeal.S200000x128, .f32⟩ : BufTy).Contents (Elt Ideal))
    (x2 : (⟨Cert.KernelIdeal.S200000x4, .i32⟩ : BufTy).Contents (Elt Ideal)) :
    Cert.ReferenceIdeal.Read.val_main_v7 (F := Ideal) x1 x2 = gatheredRows x1 x2 := rfl

end Cert.NeighbourLinear

end
-- ==== Proof.lean ====
/-
  A linear layer over a point cloud, with neighbour features gathered by index: the kernel against its reference,
  equal on the extended reals.

  Every one of 200000 points has 128 features and four neighbours, named by an index array; a neighbour contributes its
  row of the PREVIOUS features. The reference joins a point's own row with its four neighbours' rows into 640 columns,
  contracts with each of 128 weight rows and adds a bias. The kernel never forms the joined row: on the host it gathers
  the neighbours' rows (512 columns) and cuts the weights into the first 128 columns and the last 512; on a grid of 20
  points, each over a band of 10000 rows, it multiplies the own features into the first cut, the gathered rows into
  the second, adds the two products and the bias. The two results are the same function of the arguments because a sum
  over 640 columns is the sum over the first 128 plus the sum over the last 512 — a re-grouping of a finite sum, which
  holds on the extended reals without any finiteness, so the precondition is never opened. The changes of float format
  the kernel makes are the identity on the extended reals, and both programs gather the same rows whatever the indices.

  Proof/Spec.lean states the layer and the re-grouping; Proof/RefLayer.lean reads the reference's result as the layer;
  Proof/Payload.lean reads the kernel body's arithmetic at an entry; Proof/Staged.lean reads the arrays the host
  operations prepare; Proof/Blocks.lean goes from the 20 bands to the whole result array and states the kernel's run;
  Proof/SameRows.lean identifies the two gathers. The three frames are the programs' runs with the result dropped, and
  the idealization rewrote no operation, so its conjunct is trivial.
-/
import proofs.«150448_j47648367182715_2_alg».proof.Defs
import proofs.«150448_j47648367182715_2_alg».proof.Proof.Gen.Kernel
import proofs.«150448_j47648367182715_2_alg».proof.Proof.Gen.Kernel.Skeleton
import proofs.«150448_j47648367182715_2_alg».proof.Proof.Gen.Kernel.Launch
import proofs.«150448_j47648367182715_2_alg».proof.Proof.Gen.Kernel.Points
import proofs.«150448_j47648367182715_2_alg».proof.Proof.Gen.Kernel.Frame
import proofs.«150448_j47648367182715_2_alg».proof.Proof.Gen.KernelIdeal
import proofs.«150448_j47648367182715_2_alg».proof.Proof.Gen.KernelIdeal.Skeleton
import proofs.«150448_j47648367182715_2_alg».proof.Proof.Gen.KernelIdeal.Launch
import proofs.«150448_j47648367182715_2_alg».proof.Proof.Gen.KernelIdeal.Points
import proofs.«150448_j47648367182715_2_alg».proof.Proof.Gen.KernelIdeal.Frame
import proofs.«150448_j47648367182715_2_alg».proof.Proof.Gen.ReferenceIdeal
import proofs.«150448_j47648367182715_2_alg».proof.Proof.Gen.Pre_finite_inputs
import proofs.«150448_j47648367182715_2_alg».proof.Proof.Gen.KernelIdeal.Value
import proofs.«150448_j47648367182715_2_alg».proof.Proof.Gen.ReferenceIdeal.Run
import proofs.«150448_j47648367182715_2_alg».proof.Proof.Gen.ReferenceIdeal.Read
import proofs.«150448_j47648367182715_2_alg».proof.Proof.Spec
import proofs.«150448_j47648367182715_2_alg».proof.Proof.RefLayer
import proofs.«150448_j47648367182715_2_alg».proof.Proof.Blocks
import proofs.«150448_j47648367182715_2_alg».proof.Proof.SameRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From arguments that agree, the kernel's result array ends at the layer over the rows it gathers, and the
    reference's at the layer over the rows it gathers: the same rows, so the same array. -/
theorem algebraic : Cert.algebraic_KernelIdeal_ReferenceIdeal := by
  intro m ρ m' ρ' _ hagree
  refine ⟨fun c => Cert.NeighbourLinear.kernelLayer m c, Cert.NeighbourLinear.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v12_eq _ _ _ _ _).trans
    ((Cert.NeighbourLinear.reference_eq_layer _ _ _ _ _).trans
      (congrArg (fun nb => Cert.NeighbourLinear.layer _ nb _ _) (Cert.NeighbourLinear.same_rows _ _)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
